-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S1x8192 : Shape := ⟨2, ![1, 8192]⟩
abbrev S4096x8192 : Shape := ⟨2, ![4096, 8192]⟩
abbrev S512x512 : Shape := ⟨2, ![512, 512]⟩
abbrev S1024x512 : Shape := ⟨2, ![1024, 512]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S4096x8192, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x512_S8192_d1 : S8192x512.ReducesTo [1] S8192
  h_S_ : 0 < S_.numel
  shapeCasts_S8192_S1x8192 : S8192.ShapeCasts S1x8192
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  reduces_S512x512_S512 : S512x512.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S4096x8192, .f32⟩
  | .hbm, ⟨9, _⟩ => ⟨S4096x1, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S8192x512_S8192_d1 : S8192x512.ReducesTo [1] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S4096x512_S8192x512_S4096x8192_1_1_0_0_n_n_wf : DotDims.WF S4096x512 S8192x512 S4096x8192 [1] [1] [0] [0] [] []

variable [Facts₀]

def dot_S4096x512_S8192x512_S4096x8192_1_1_0_0_n_n : DotDims S4096x512 S8192x512 S4096x8192 where
  lhsContracting := [1]
  rhsContracting := [1]
  lhsNonContracting := [0]
  rhsNonContracting := [0]
  lhsBatch := []
  rhsBatch := []
  wf := dot_S4096x512_S8192x512_S4096x8192_1_1_0_0_n_n_wf

class Facts : Prop extends Facts₀ where

variable [Facts]
-- ==== Proof.Spec.lean ====
/-
  The Gaussian (RBF) Gram matrix as ONE function of the two argument arrays, over the extended reals.

  For queries `x` (4096 rows of 512 features) and centres `sv` (8192 rows of 512 features), entry `(b, n)` is

      exp (c · ((‖x_b‖² + ‖sv_n‖²) − two · ⟨x_b, sv_n⟩))

  where `‖·‖²` is a row's sum of squares, `⟨·,·⟩` the inner product of two rows, and `c`, `two` are the two float
  literals both programs carry as the same binary words (`c` the single-precision word nearest −0.002, `two` the
  word of 2.0). The literals stay as words: the same word on both sides is never evaluated. The grouping
  `(‖x_b‖² + ‖sv_n‖²) − two · ⟨x_b, sv_n⟩` is the one both programs compute, so no law of the extended reals beyond
  `0 + s = s` is needed to join them, and finiteness of the inputs is never used.
-/
import Idealize.ShloMosaic.PureOps.Ideal
import Idealize.ShloMosaic.Lib.ValueIdx

noncomputable section

namespace Cert.Rbf

open Idealize.ShloMosaic Idealize.ShloMosaic.ValueIdx

/-- The sum of squares of row `r` of a matrix with 512 columns. -/
def sqnorm {n : Nat} (a : (⟨2, ![n, 512]⟩ : Shape).Idx → EReal) (r : Fin n) : EReal :=
  ∑ k : Fin 512, a (ix2 r k) * a (ix2 r k)

/-- The inner product of row `b` of `x` with row `n` of `sv`. -/
def inner (x : (⟨2, ![4096, 512]⟩ : Shape).Idx → EReal) (sv : (⟨2, ![8192, 512]⟩ : Shape).Idx → EReal)
    (b : Fin 4096) (n : Fin 8192) : EReal :=
  ∑ k : Fin 512, x (ix2 b k) * sv (ix2 n k)

/-- Entry `(b, n)` of the Gram matrix. -/
def gramAt (x : (⟨2, ![4096, 512]⟩ : Shape).Idx → EReal) (sv : (⟨2, ![8192, 512]⟩ : Shape).Idx → EReal)
    (b : Fin 4096) (n : Fin 8192) : EReal :=
  Ideal.exp (Ideal.ofBits .f32 0xBB03126F#32
    * ((sqnorm x b + sqnorm sv n) - Ideal.ofBits .f32 0x40000000#32 * inner x sv b n))

/-- The Gram matrix, index by index. -/
def gram (x : (⟨2, ![4096, 512]⟩ : Shape).Idx → EReal) (sv : (⟨2, ![8192, 512]⟩ : Shape).Idx → EReal) :
    (⟨2, ![4096, 8192]⟩ : Shape).Idx → EReal :=
  fun i => gramAt x sv (i 0) (i 1)

end Cert.Rbf

end
-- ==== Proof.RefSpec.lean ====
/-
  The reference program's result is the Gram matrix of `Spec`.

  Read one operation at a time, the reference's last stage at index `i = (b, n)` is
  `exp (c · (((0 + ∑ₖ x(b,k)·x(b,k)) + (0 + ∑ₖ sv(n,k)·sv(n,k))) − two · ∑ₖ x(b,k)·sv(n,k)))`:
  the two row sums come from a reduction started at the zero word, broadcast along the other axis, and the inner
  product from the contraction of the two feature axes. Dropping the two `0 +` gives `gram x sv i`.
-/
import proofs.«176936_j30408368455724_2_alg».proof.Proof.Gen.ReferenceIdeal.Read
import proofs.«176936_j30408368455724_2_alg».proof.Proof.Spec

noncomputable section

namespace Cert.Rbf.Ref

open Cert.ReferenceIdeal Cert.ReferenceIdeal.Read Idealize.ShloMosaic Idealize.ShloMosaic.ValueIdx

theorem stage_eq_gram (x0 : (⟨S4096x512, .f32⟩ : BufTy).Contents (Elt Ideal)) (x1 : (⟨S8192x512, .f32⟩ : BufTy).Contents (Elt Ideal)) :
    val_main_v15 (F := Ideal) x0 x1 = Cert.Rbf.gram x0 x1 := by
  funext i
  -- the composed index functions of the row sums and of the contraction are rows `i 0` of `x` and `i 1` of `sv`
  have ex : ∀ k : Fin 512, idx_main_v1 (idx_main_v5 (idx_main_v7 i)) k = ix2 (i 0) k := fun k =>
    funext fun a => Fin.ext (by match a with | ⟨0, _⟩ => rfl | ⟨1, _⟩ => rfl)
  have es : ∀ k : Fin 512, idx_main_v3 (idx_main_v6 (idx_main_v8 i)) k = ix2 (i 1) k := fun k =>
    funext fun a => Fin.ext (by match a with | ⟨0, _⟩ => rfl | ⟨1, _⟩ => rfl)
  have el : ∀ k : Fin 512, lidx_main_v4 i k = ix2 (i 0) k := fun k =>
    funext fun a => Fin.ext (by match a with | ⟨0, _⟩ => rfl | ⟨1, _⟩ => rfl)
  have er : ∀ k : Fin 512, ridx_main_v4 i k = ix2 (i 1) k := fun k =>
    funext fun a => Fin.ext (by match a with | ⟨0, _⟩ => rfl | ⟨1, _⟩ => rfl)
  rw [val_main_v15_apply, val_main_v14_apply, val_main_v13_apply, val_main_cst_2_apply, val_main_v12_apply,
    val_main_v9_apply, val_main_v7_apply, val_main_v5_apply, val_main_v1_apply, val_main_cst_apply,
    val_main_v8_apply, val_main_v6_apply, val_main_v3_apply, val_main_cst_0_apply,
    val_main_v11_apply, val_main_v10_apply, val_main_cst_1_apply, val_main_v4_apply]
  simp only [val_main_v0_apply, val_main_v2_apply, ex, es, el, er, Ideal.hostUnary_exp_def, Ideal.mulf_def,
    Ideal.subf_def, Ideal.addf_def, Ideal.ofBits_def, Ideal.ofBits_zero_f32, zero_add]
  rfl

end Cert.Rbf.Ref

end
-- ==== Proof.Payload.lean ====
/-
  The kernel body's one stored value, read at an index of its `[512, 1024]` output block.

  From the three loaded blocks — `v0` (512 query rows), `v1` (1024 centre rows), `v5` (one row holding the 1024
  centres' sums of squares, computed before the launch) — entry `(p, q)` of the stored block is

      exp (c · (((∑ₖ v0(p,k)·v0(p,k)) + v5(0,q)) − two · ∑ₖ v0(p,k)·v1(q,k)))

  The pieces that are not pointwise: the lane sum of `v0 · v0` kept as a `[512, 1]` column and broadcast along the
  1024 columns reads, at `(p, q)`, row `p`'s sum; the `[1, 1024]` row broadcast along the 512 rows reads its entry
  `q`; the matrix product of the two blocks narrowed to half precision (a change of float format: the identity on
  extended reals) into a zero accumulator, contracting both feature axes, is the inner product of row `p` of
  `v0` with row `q` of `v1`.
-/
import proofs.«176936_j30408368455724_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Body

open Cert.KernelIdeal Cert.KernelIdeal.Gen Idealize.ShloMosaic Idealize.ShloMosaic.ValueIdx

/-- The contraction record of the body's matrix product. -/
abbrev D := dot_S512x512_S1024x512_S512x1024_1_1_0_0_n_n

/-- A row's lane sum, kept as a column and broadcast along the columns, reads at `(p, q)` the sum of row `p`. -/
theorem rowsum_keepdims_bcast (w : FVec Ideal S512x512 .f32) (p : Fin 512) (q : Fin 1024) :
    broadcastTo S512x1024 (shapeCast S512x1 (multiReduction .add [1] S512 w 0x00000000#32 reduces_S512x512_S512 (.inl rfl) rfl)
        shapeCasts_S512_S512x1) broadcasts_S512x1_S512x1024 (ix2 p q)
      = ∑ k : Fin 512, w (ix2 p k) := by
  refine (broadcastTo_apply _ broadcasts_S512x1_S512x1024 (ix2 p q) (ix2 p (0 : Fin 1)) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single w 0x00000000#32 reduces_S512x512_S512 (.inl rfl) rfl (ix1 p)).trans ?_
  exact Finset.sum_congr rfl fun k _ => congrArg w (funext fun a => Fin.ext (by
    match a with
    | ⟨0, _⟩ => rfl
    | ⟨1, _⟩ => rfl))

/-- The one-row block, re-cast to its own shape and broadcast along the rows, reads at `(p, q)` its entry `q`. -/
theorem row_bcast (v5 : Vec Ideal S1x1024 .f32) (p : Fin 512) (q : Fin 1024) :
    broadcastTo S512x1024 (shapeCast S1x1024 v5 shapeCasts_S1x1024_S1x1024) broadcasts_S1x1024_S512x1024 (ix2 p q)
      = v5 (ix2 (0 : Fin 1) q) := by
  rw [shapeCast_self]
  exact broadcastTo_1b_ab_apply v5 broadcasts_S1x1024_S512x1024 p q

theorem lhs_0 (i : S512x1024.Idx) (r : D.contr.Idx) : (D.lhsIdx i r 0).val = (i 0).val := by
  unfold DotDims.lhsIdx
  rw [dif_neg (show ¬(0 : Fin S512x512.rank) ∈ D.lhsBatch by decide), dif_pos (show (0 : Fin S512x512.rank) ∈ D.lhsNonContracting by decide)]
  rfl
theorem lhs_1 (i : S512x1024.Idx) (r : D.contr.Idx) : (D.lhsIdx i r 1).val = (r ⟨0, by decide⟩).val :=
  D.lhsIdx_val_of_single rfl i r
theorem rhs_0 (i : S512x1024.Idx) (r : D.contr.Idx) : (D.rhsIdx i r 0).val = (i 1).val := by
  unfold DotDims.rhsIdx
  rw [dif_neg (show ¬(0 : Fin S1024x512.rank) ∈ D.rhsBatch by decide), dif_pos (show (0 : Fin S1024x512.rank) ∈ D.rhsNonContracting by decide)]
  rfl
theorem rhs_1 (i : S512x1024.Idx) (r : D.contr.Idx) : (D.rhsIdx i r 1).val = (r ⟨0, by decide⟩).val :=
  D.rhsIdx_val_of_single rfl i r

/-- The matrix product into a zero accumulator, contracting the feature axis of both blocks, reads at `(p, q)` the
    inner product of row `p` of the left block with row `q` of the right block. -/
theorem matmul_rows (a : FVec Ideal S512x512 .bf16) (b : FVec Ideal S1024x512 .bf16) (p : Fin 512) (q : Fin 1024) :
    matmul D none a b (constant S512x1024 .f32 0x00000000#32) (ix2 p q) = ∑ k : Fin 512, a (ix2 p k) * b (ix2 q k) := by
  refine (Ideal.matmul_constant_zero_apply D none a b (ix2 p q)).trans ?_
  rw [← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun ax => Fin.ext (by
    match ax with
    | ⟨0, _⟩ => exact lhs_0 _ _
    | ⟨1, _⟩ => exact (lhs_1 _ _).trans hk)
  have er : D.rhsIdx (ix2 p q) ((contrEquiv1 D 512 rfl rfl).symm k) = ix2 q k := funext fun ax => Fin.ext (by
    match ax with
    | ⟨0, _⟩ => exact rhs_0 _ _
    | ⟨1, _⟩ => exact (rhs_1 _ _).trans hk)
  rw [el, er]

/-- THE PAYLOAD AT AN INDEX. -/
theorem pay_at (v0 : Vec Ideal S512x512 .f32) (v1 : Vec Ideal S1024x512 .f32) (v5 : Vec Ideal S1x1024 .f32)
    (p : Fin 512) (q : Fin 1024) :
    k0_pay1 (F := Ideal) v0 v1 v5 (ix2 p q)
      = Ideal.exp (Ideal.ofBits .f32 0xBB03126F#32
          * (((∑ k : Fin 512, v0 (ix2 p k) * v0 (ix2 p k)) + v5 (ix2 (0 : Fin 1) q))
              - Ideal.ofBits .f32 0x40000000#32 * ∑ k : Fin 512, v0 (ix2 p k) * v1 (ix2 q k))) := by
  unfold k0_pay1
  show Ideal.exp (Ideal.ofBits .f32 0xBB03126F#32
      * ((broadcastTo S512x1024 (shapeCast S512x1 (multiReduction (F := Ideal) .add [1] S512 (mulf v0 v0) 0x00000000#32 reduces_S512x512_S512 (.inl rfl) rfl)
            shapeCasts_S512_S512x1) broadcasts_S512x1_S512x1024 (ix2 p q)
          + broadcastTo S512x1024 (shapeCast S1x1024 v5 shapeCasts_S1x1024_S1x1024) broadcasts_S1x1024_S512x1024 (ix2 p q))
        - Ideal.ofBits .f32 0x40000000#32
          * matmul (F := Ideal) D none (truncf (F := Ideal) .bf16 v0 bitsLt_bf16_f32) (truncf (F := Ideal) .bf16 v1 bitsLt_bf16_f32) (constant (F := Ideal) S512x1024 .f32 0x00000000#32) (ix2 p q))) = _
  rw [rowsum_keepdims_bcast, row_bcast, matmul_rows]
  rfl

end Cert.Rbf.Body

end
-- ==== Proof.Point.lean ====
/-
  One entry of the stored block is one entry of the Gram matrix.

  If the loaded query block's row `p` is row `b` of `x`, the loaded centre block's row `q` is row `n` of `sv`, and
  the loaded norm row's entry `q` is the sum of squares of row `n` of `sv`, then the body's stored value at `(p, q)`
  is entry `(b, n)` of the Gram matrix: the body's own lane sum is row `b`'s sum of squares and its matrix product
  is the inner product of the two rows.
-/
import proofs.«176936_j30408368455724_2_alg».proof.Proof.Payload
import proofs.«176936_j30408368455724_2_alg».proof.Proof.Spec

noncomputable section

namespace Cert.Rbf.Body

open Cert.KernelIdeal Cert.KernelIdeal.Gen Idealize.ShloMosaic Idealize.ShloMosaic.ValueIdx

theorem pay_eq_gramAt (x : (⟨2, ![4096, 512]⟩ : Shape).Idx → EReal) (sv : (⟨2, ![8192, 512]⟩ : Shape).Idx → EReal)
    (v0 : Vec Ideal S512x512 .f32) (v1 : Vec Ideal S1024x512 .f32) (v5 : Vec Ideal S1x1024 .f32)
    (b : Fin 4096) (n : Fin 8192) (p : Fin 512) (q : Fin 1024)
    (h0 : ∀ k : Fin 512, v0 (ix2 p k) = x (ix2 b k))
    (h1 : ∀ k : Fin 512, v1 (ix2 q k) = sv (ix2 n k))
    (h5 : v5 (ix2 (0 : Fin 1) q) = Cert.Rbf.sqnorm sv n) :
    k0_pay1 (F := Ideal) v0 v1 v5 (ix2 p q) = Cert.Rbf.gramAt x sv b n := by
  rw [pay_at, h5]
  unfold Cert.Rbf.gramAt Cert.Rbf.sqnorm Cert.Rbf.inner
  simp only [h0, h1]

end Cert.Rbf.Body

end
-- ==== Proof.HostRow.lean ====
/-
  The row of centre norms the host writes before the launch.

  Before the one kernel launch the program squares `sv` entry by entry, sums each of its 8192 rows from the zero word,
  and re-lays the 8192 sums as a `[1, 8192]` row; the kernel's third window stages blocks of that row. Read at
  `(0, n)` the row holds `0 + ∑ₖ sv(n,k)·sv(n,k)`, that is the sum of squares of row `n` of `sv`.
-/
import proofs.«176936_j30408368455724_2_alg».proof.Proof.Gen.KernelIdeal.Frame
import proofs.«176936_j30408368455724_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A host row sum from the zero word, read at row `n`, is the plain sum over the 512 columns. -/
theorem reduce_rows (y : (⟨S8192x512, .f32⟩ : BufTy).Contents (Elt Ideal)) (n : Fin 8192) :
    Host.reduceAdd (F := Ideal) y (constant (F := Ideal) S_ .f32 0x00000000#32) reducesTo_S8192x512_S8192_d1 h_S_ (ix1 n)
      = ∑ k : Fin 512, y (ix2 n k) := by
  simp only [Host.reduceAdd, Ideal.hostReduceAdd_def]
  rw [Ideal.hostReduceAdd_single reducesTo_S8192x512_S8192_d1 (by decide)]
  simp only [constant, Ideal.ofBits_def, Ideal.ofBits_zero_f32, zero_add]
  exact Finset.sum_congr rfl fun k _ => congrArg y (funext fun a => Fin.ext (by
    match a with
    | ⟨0, _⟩ => rfl
    | ⟨1, _⟩ => rfl))

/-- What the region finds in the row buffer: the host operations' term of `sv` as launched. -/
theorem row_term (c : Dev nD) :
    (V m c main_v2 : S1x8192.Idx → EReal)
      = shapeCast S1x8192 (Host.reduceAdd (F := Ideal) (mulf (m ((c : Thread nD τ).loc main_arg1)) (m ((c : Thread nD τ).loc main_arg1)))
          (constant (F := Ideal) S_ .f32 0x00000000#32) reducesTo_S8192x512_S8192_d1 h_S_) shapeCasts_S8192_S1x8192 := by
  dsimp only [V, hostOps0]
  after_results
  rfl

/-- The row at `(0, n)` is the sum of squares of row `n` of `sv`. -/
theorem row_at (c : Dev nD) (n : Fin 8192) :
    (V m c main_v2 : S1x8192.Idx → EReal) (ix2 (0 : Fin 1) n) = Cert.Rbf.sqnorm (m ((c : Thread nD τ).loc main_arg1)) n := by
  rw [row_term]
  refine (shapeCast_apply _ shapeCasts_S8192_S1x8192 (ix2 (0 : Fin 1) n) (ix1 n) ?_).trans ?_
  · rw [Shape.rowMajor_val_one, Shape.rowMajor_val_two]
    show n.val = 0 * 8192 + n.val
    omega
  rw [reduce_rows]
  rfl

end Cert.Rbf.Host

end
-- ==== Proof.Blocks.lean ====
/-
  From blocks to the whole array: after the run the kernel's result array is the Gram matrix of its arguments.

  The grid has 8 × 8 points. At point `t = (i, j)` the query window stages rows `512·i …` of `x`, the centre window
  rows `1024·j …` of `sv`, the norm window columns `1024·j …` of the precomputed row, and the output window is block
  `(i, j)` of the `[4096, 8192]` result. So entry `(p, q)` of what point `t` writes back depends on row
  `512·i + p` of `x` and row `1024·j + q` of `sv` only, and is entry `(512·i + p, 1024·j + q)` of the Gram matrix:
  each point writes back its own block of ONE whole-array function. The 64 blocks tile the result (the point
  covering `(r, s)` is `(r / 512, s / 1024)`), so the final array is that function.
-/
import proofs.«176936_j30408368455724_2_alg».proof.Proof.Gen.KernelIdeal.Value
import proofs.«176936_j30408368455724_2_alg».proof.Proof.Spec
import proofs.«176936_j30408368455724_2_alg».proof.Proof.Point
import proofs.«176936_j30408368455724_2_alg».proof.Proof.HostRow
import Idealize.ShloMosaic.Lib.Pipeline.Value

set_option maxRecDepth 16384

noncomputable section

namespace Cert.Rbf.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The four index maps over the 64 grid points: the query window follows the output's row block and stays at
    feature block 0; the centre window and the norm window follow the output's column block; the output's block
    indices stay below 8 on both axes. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 output blocks is some point's. -/
theorem every_block : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- WHAT POINT `t` WRITES BACK is block `t` of the Gram matrix of the arrays as the region finds them. -/
theorem flushed_eq (c : Dev nD) (t : Fin cfg0.N) :
    (dats m 0 c).flushed 3 t
      = ((cfg0.win 3).blk t).view.read (Elt Ideal) (Cert.Rbf.gram (V m c main_arg0) (V m c main_arg1)) := by
  rw [Cert.KernelIdeal.Value.flushed3]
  unfold out0_3
  rw [View.canon_unit_zero zero_offsets]
  simp only [View.ld_unit_zero (S := S512x512) zero_offsets, View.ld_unit_zero (S := S1024x512) zero_offsets,
    View.ld_unit_zero (S := S1x1024) zero_offsets]
  obtain ⟨e0, e1, e2, e3, e4, e5, b0, b1⟩ := index_maps t
  refine funext fun (j : S512x1024.Idx) => ?_
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = Cert.Rbf.gramAt (V m c main_arg0) (V m c main_arg1)
        ((((cfg0.win 3).blk t).view.emb (ix2 p q)) 0) ((((cfg0.win 3).blk t).view.emb (ix2 p q)) 1)
  refine Cert.Rbf.Body.pay_eq_gramAt (V m c main_arg0) (V m c main_arg1) (iblk m c 0 t) (iblk m c 1 t) (iblk m c 2 t)
    ((((cfg0.win 3).blk t).view.emb (ix2 p q)) 0) ((((cfg0.win 3).blk t).view.emb (ix2 p q)) 1) p q ?_ ?_ ?_
  · -- row `p` of the query block is row `512·i + p` of `x`
    intro k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 512 + 1 * k.val = k.val; omega
  · -- row `q` of the centre block is row `1024·j + q` of `sv`
    intro k
    show V m c main_arg1 (((cfg0.win 1).blk t).view.emb (ix2 q k)) = V m c main_arg1 _
    refine congrArg (V m c main_arg1) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 512 + 1 * k.val = k.val; omega
  · -- entry `q` of the norm block is entry `1024·j + q` of the host's row
    have hq : q.val < 1024 := q.isLt
    refine Eq.trans ?_ (Cert.Rbf.Host.row_at m c ⟨win0_3.index t (1 : Fin 2) * 1024 + 1 * q.val, by omega⟩)
    show V m c main_v2 (((cfg0.win 2).blk t).view.emb (ix2 (0 : Fin 1) q)) = V m c main_v2 _
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- An index of the result is in point `t`'s block iff each coordinate is in the block's range on its axis. -/
theorem mem_block (t : Fin cfg0.N) (i : S4096x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v3).slice (win0_3.rect t)).set ↔ _
  rw [View.set_slice_whole, Rect.mem_set_unit]
  exact Iff.rfl

/-- The 64 blocks tile the result: `(r, s)` is in the block of the point with block indices `(r / 512, s / 1024)`. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := every_block ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run is the Gram matrix of the two arguments as launched. -/
theorem final (c : Dev nD) :
    (dats m 0 c).arrAt 3 cfg0.N
      = Cert.Rbf.gram (m ((c : Thread nD τ).loc main_arg0)) (m ((c : Thread nD τ).loc main_arg1)) := by
  refine ((dats m 0 c).arrAt_eq_of_cover 3 (Cert.Rbf.gram (V m c main_arg0) (V m c main_arg1))
    (fun t _ => flushed_eq m c t) covered).trans ?_
  rw [V_main_arg0, V_main_arg1]

/-- The kernel's run, read: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v3)
        = Cert.Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Blocks

end
-- ==== Proof.lean ====
/-
  The Gaussian (RBF) kernel matrix `K[b, n] = exp (−γ · ‖x_b − sv_n‖²)`, computed by both programs through the
  expansion `‖x_b‖² + ‖sv_n‖² − 2 ⟨x_b, sv_n⟩`.

  Over the extended reals both programs compute, entry by entry, ONE function of the two argument arrays
  (`Cert.Rbf.gram`, Proof/Spec.lean):

      exp (c · ((∑ₖ x(b,k)² + ∑ₖ sv(n,k)²) − two · ∑ₖ x(b,k) · sv(n,k)))

  with `c` and `two` the same two float words on both sides.

  * The reference sums the squares of each row of `x` and of `sv`, contracts the feature axes of `x` and `sv`,
    and combines the three by broadcasts (Proof/RefSpec.lean).
  * The kernel tiles the `[4096, 8192]` result into 8 × 8 blocks of `[512, 1024]`. The centres' sums of squares are
    computed once before the launch as a `[1, 8192]` row (Proof/HostRow.lean); at each block the body sums the
    squares of its 512 query rows itself, multiplies its query rows with its centre rows narrowed to half precision
    (a change of float format, the identity on extended reals) into a zero accumulator, and combines as the
    reference does (Proof/Payload.lean, Proof/Point.lean). Each block written back is the matching block of the
    one function, and the blocks tile the result (Proof/Blocks.lean).

  The two sides agree term by term up to `0 + s = s`; no distributivity or cancellation is used, so the finiteness
  of the inputs is never needed. The kernel's idealization rewrote no operation, so there is nothing to preserve.
-/
import proofs.«176936_j30408368455724_2_alg».proof.Defs
import proofs.«176936_j30408368455724_2_alg».proof.Proof.Gen.Kernel
import proofs.«176936_j30408368455724_2_alg».proof.Proof.Gen.Kernel.Frame
import proofs.«176936_j30408368455724_2_alg».proof.Proof.Gen.KernelIdeal
import proofs.«176936_j30408368455724_2_alg».proof.Proof.Gen.KernelIdeal.Frame
import proofs.«176936_j30408368455724_2_alg».proof.Proof.Gen.KernelIdeal.Value
import proofs.«176936_j30408368455724_2_alg».proof.Proof.Gen.ReferenceIdeal
import proofs.«176936_j30408368455724_2_alg».proof.Proof.Gen.ReferenceIdeal.Run
import proofs.«176936_j30408368455724_2_alg».proof.Proof.Gen.ReferenceIdeal.Read
import proofs.«176936_j30408368455724_2_alg».proof.Proof.Gen.Pre_finite_inputs
import proofs.«176936_j30408368455724_2_alg».proof.Proof.RefSpec
import proofs.«176936_j30408368455724_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the Gram matrix of the (agreeing) arguments in their result arrays. -/
theorem algebraic : Cert.algebraic_KernelIdeal_ReferenceIdeal := by
  intro m ρ m' ρ' _ hagree
  refine ⟨fun c => Cert.Rbf.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Rbf.Ref.stage_eq_gram, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
